-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x28x28 : Shape := ⟨4, ![512, 256, 28, 28]⟩
abbrev S_ : Shape := ⟨0, ![]⟩

class Facts : Prop where
  bcast_S_S512x256x28x28 : S_.BroadcastsInDim S512x256x28x28 (![] : Fin 0 → Fin S512x256x28x28.rank)
  reducesTo_S512x256x28x28_S_d0_1_2_3 : S512x256x28x28.ReducesTo [0, 1, 2, 3] S_
  h_S_ : 0 < S_.numel

variable [Facts]

def fn {F : FTy → Type} [FloatOps F] (main_arg0 : FVec F S512x256x28x28 .f32) : IVec S_ 1 :=
  let main_v0 : FVec F S512x256x28x28 .f32 := Host.absf main_arg0
  let main_cst : FVec F S_ .f32 := constant S_ .f32 0x7F800000#32
  let main_v1 : FVec F S512x256x28x28 .f32 := broadcastInDim S512x256x28x28 ![] bcast_S_S512x256x28x28 main_cst
  let main_v2 : IVec S512x256x28x28 1 := cmpf .olt main_v0 main_v1
  let main_c : IVec S_ 1 := constantI S_ 1 1#1
  let main_v3 : IVec S_ 1 := (fun x v => Host.reduce IntOp.andi x v reducesTo_S512x256x28x28_S_d0_1_2_3 h_S_) main_v2 main_c
  main_v3
-- ==== Kernel.lean ====
abbrev S512x256x28x28 : Shape := ⟨4, ![512, 256, 28, 28]⟩
abbrev S131072x28x28 : Shape := ⟨3, ![131072, 28, 28]⟩
abbrev S131072x7x7 : Shape := ⟨3, ![131072, 7, 7]⟩
abbrev S256x28x28 : Shape := ⟨3, ![256, 28, 28]⟩
abbrev S256x7x7 : Shape := ⟨3, ![256, 7, 7]⟩
abbrev S256x4x28 : Shape := ⟨3, ![256, 4, 28]⟩
abbrev S256x28 : Shape := ⟨2, ![256, 28]⟩
abbrev S256x1x28 : Shape := ⟨3, ![256, 1, 28]⟩
abbrev S256x7x28 : Shape := ⟨3, ![256, 7, 28]⟩
abbrev S256x7x4 : Shape := ⟨3, ![256, 7, 4]⟩
abbrev S256x7 : Shape := ⟨2, ![256, 7]⟩
abbrev S256x7x1 : Shape := ⟨3, ![256, 7, 1]⟩
abbrev S512x256x7x7 : Shape := ⟨4, ![512, 256, 7, 7]⟩

abbrev nBuf : Space → Nat
  | .hbm => 4
  | .vmem => 4
  | .smem => 0
  | _ => 0

abbrev bufTy : (tb : Table) → Fin (tcTables nBuf tb) → BufTy
  | .hbm, ⟨0, _⟩ => ⟨S512x256x28x28, .f32⟩
  | .hbm, ⟨1, _⟩ => ⟨S131072x28x28, .f32⟩
  | .hbm, ⟨2, _⟩ => ⟨S131072x7x7, .f32⟩
  | .hbm, ⟨3, _⟩ => ⟨S512x256x7x7, .f32⟩
  | .local _ .vmem, ⟨0, _⟩ => ⟨S256x28x28, .f32⟩
  | .local _ .vmem, ⟨1, _⟩ => ⟨S256x28x28, .f32⟩
  | .local _ .vmem, ⟨2, _⟩ => ⟨S256x7x7, .f32⟩
  | .local _ .vmem, ⟨3, _⟩ => ⟨S256x7x7, .f32⟩
  | _, _ => ⟨S512x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S512x256x28x28_S131072x28x28 : S512x256x28x28.ShapeCasts S131072x28x28
  inb_S256x28x28_S256x28x28_0_0_0 : ∀ a, (![0, 0, 0] : Fin 3 → Nat) a + S256x28x28.size a ≤ S256x28x28.size a
  h_S256x28x28 : 0 < S256x28x28.numel
  shapeCasts_S256x28x28_S256x28x28 : S256x28x28.ShapeCasts S256x28x28
  slices_S256x28x28_o0_0_0_S256x4x28 : S256x28x28.Slices ![0, 0, 0] S256x4x28
  reduces_S256x4x28_S256x28 : S256x4x28.Reduces [1] S256x28
  shapeCasts_S256x28_S256x1x28 : S256x28.ShapeCasts S256x1x28
  slices_S256x28x28_o0_4_0_S256x4x28 : S256x28x28.Slices ![0, 4, 0] S256x4x28
  slices_S256x28x28_o0_8_0_S256x4x28 : S256x28x28.Slices ![0, 8, 0] S256x4x28
  slices_S256x28x28_o0_12_0_S256x4x28 : S256x28x28.Slices ![0, 12, 0] S256x4x28
  slices_S256x28x28_o0_16_0_S256x4x28 : S256x28x28.Slices ![0, 16, 0] S256x4x28
  slices_S256x28x28_o0_20_0_S256x4x28 : S256x28x28.Slices ![0, 20, 0] S256x4x28
  slices_S256x28x28_o0_24_0_S256x4x28 : S256x28x28.Slices ![0, 24, 0] S256x4x28
  concatenates_S256x1x28_S256x1x28_S256x1x28_S256x1x28_S256x1x28_S256x1x28_S256x1x28_S256x7x28_d1 : Shape.Concatenates [S256x1x28, S256x1x28, S256x1x28, S256x1x28, S256x1x28, S256x1x28, S256x1x28] S256x7x28 1
  slices_S256x7x28_o0_0_0_S256x7x4 : S256x7x28.Slices ![0, 0, 0] S256x7x4
  reduces_S256x7x4_S256x7 : S256x7x4.Reduces [2] S256x7
  shapeCasts_S256x7_S256x7x1 : S256x7.ShapeCasts S256x7x1
  slices_S256x7x28_o0_0_4_S256x7x4 : S256x7x28.Slices ![0, 0, 4] S256x7x4
  slices_S256x7x28_o0_0_8_S256x7x4 : S256x7x28.Slices ![0, 0, 8] S256x7x4
  slices_S256x7x28_o0_0_12_S256x7x4 : S256x7x28.Slices ![0, 0, 12] S256x7x4
  slices_S256x7x28_o0_0_16_S256x7x4 : S256x7x28.Slices ![0, 0, 16] S256x7x4
  slices_S256x7x28_o0_0_20_S256x7x4 : S256x7x28.Slices ![0, 0, 20] S256x7x4
  slices_S256x7x28_o0_0_24_S256x7x4 : S256x7x28.Slices ![0, 0, 24] S256x7x4
  concatenates_S256x7x1_S256x7x1_S256x7x1_S256x7x1_S256x7x1_S256x7x1_S256x7x1_S256x7x7_d2 : Shape.Concatenates [S256x7x1, S256x7x1, S256x7x1, S256x7x1, S256x7x1, S256x7x1, S256x7x1] S256x7x7 2
  inb_S256x7x7_S256x7x7_0_0_0 : ∀ a, (![0, 0, 0] : Fin 3 → Nat) a + S256x7x7.size a ≤ S256x7x7.size a
  h_S256x7x7 : 0 < S256x7x7.numel
  shapeCasts_S131072x7x7_S512x256x7x7 : S131072x7x7.ShapeCasts S512x256x7x7
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x28x28.size a ≤ S131072x28x28.size a
  hwx0_0 : ∀ i : grid0.Coords, EltTy.bits .f32 = 32 ∨ (Rect.block (s := S131072x28x28) S256x28x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x7x7.size a ≤ S131072x7x7.size a
  hwx0_1 : ∀ i : grid0.Coords, EltTy.bits .f32 = 32 ∨ (Rect.block (s := S131072x7x7) S256x7x7.size (cc0_transform_1 i) (hinb0_1 i)).WholeWords (EltTy.packing .f32)

variable [Facts₀]

abbrev win0_0 : Pipeline.Window sig grid0 :=
  Pipeline.Window.ofSpec (Memref.whole main_v0) S256x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x7x7.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256x28x28 : Shape := ⟨4, ![512, 256, 28, 28]⟩
abbrev S7x4 : Shape := ⟨2, ![7, 4]⟩
abbrev S_ : Shape := ⟨0, ![]⟩
abbrev S7x4x1 : Shape := ⟨3, ![7, 4, 1]⟩
abbrev S512x256x7x4x28 : Shape := ⟨5, ![512, 256, 7, 4, 28]⟩
abbrev S1x1x7x4x1 : Shape := ⟨5, ![1, 1, 7, 4, 1]⟩
abbrev S512x256x7x28 : Shape := ⟨4, ![512, 256, 7, 28]⟩
abbrev S512x256x7x7x4 : Shape := ⟨5, ![512, 256, 7, 7, 4]⟩
abbrev S1x1x1x7x4 : Shape := ⟨5, ![1, 1, 1, 7, 4]⟩
abbrev S512x256x7x7 : Shape := ⟨4, ![512, 256, 7, 7]⟩

abbrev nBuf : Space → Nat
  | .hbm => 37
  | .vmem => 0
  | .smem => 0
  | _ => 0

abbrev bufTy : (tb : Table) → Fin (tcTables nBuf tb) → BufTy
  | .hbm, ⟨0, _⟩ => ⟨S512x256x28x28, .f32⟩
  | .hbm, ⟨1, _⟩ => ⟨S7x4, .i32⟩
  | .hbm, ⟨2, _⟩ => ⟨S7x4, .i1⟩
  | .hbm, ⟨3, _⟩ => ⟨S7x4, .i32⟩
  | .hbm, ⟨4, _⟩ => ⟨S7x4, .i1⟩
  | .hbm, ⟨5, _⟩ => ⟨S_, .i32⟩
  | .hbm, ⟨6, _⟩ => ⟨S7x4, .i32⟩
  | .hbm, ⟨7, _⟩ => ⟨S7x4, .i1⟩
  | .hbm, ⟨8, _⟩ => ⟨S_, .i32⟩
  | .hbm, ⟨9, _⟩ => ⟨S7x4, .i32⟩
  | .hbm, ⟨10, _⟩ => ⟨S7x4, .i32⟩
  | .hbm, ⟨11, _⟩ => ⟨S7x4, .i32⟩
  | .hbm, ⟨12, _⟩ => ⟨S7x4x1, .i32⟩
  | .hbm, ⟨13, _⟩ => ⟨S512x256x7x4x28, .f32⟩
  | .hbm, ⟨14, _⟩ => ⟨S1x1x7x4x1, .i1⟩
  | .hbm, ⟨15, _⟩ => ⟨S_, .f32⟩
  | .hbm, ⟨16, _⟩ => ⟨S512x256x7x4x28, .i1⟩
  | .hbm, ⟨17, _⟩ => ⟨S512x256x7x4x28, .f32⟩
  | .hbm, ⟨18, _⟩ => ⟨S512x256x7x4x28, .f32⟩
  | .hbm, ⟨19, _⟩ => ⟨S_, .f32⟩
  | .hbm, ⟨20, _⟩ => ⟨S512x256x7x28, .f32⟩
  | .hbm, ⟨21, _⟩ => ⟨S_, .i32⟩
  | .hbm, ⟨22, _⟩ => ⟨S7x4, .i32⟩
  | .hbm, ⟨23, _⟩ => ⟨S7x4, .i1⟩
  | .hbm, ⟨24, _⟩ => ⟨S_, .i32⟩
  | .hbm, ⟨25, _⟩ => ⟨S7x4, .i32⟩
  | .hbm, ⟨26, _⟩ => ⟨S7x4, .i32⟩
  | .hbm, ⟨27, _⟩ => ⟨S7x4, .i32⟩
  | .hbm, ⟨28, _⟩ => ⟨S7x4x1, .i32⟩
  | .hbm, ⟨29, _⟩ => ⟨S512x256x7x7x4, .f32⟩
  | .hbm, ⟨30, _⟩ => ⟨S1x1x1x7x4, .i1⟩
  | .hbm, ⟨31, _⟩ => ⟨S_, .f32⟩
  | .hbm, ⟨32, _⟩ => ⟨S512x256x7x7x4, .i1⟩
  | .hbm, ⟨33, _⟩ => ⟨S512x256x7x7x4, .f32⟩
  | .hbm, ⟨34, _⟩ => ⟨S512x256x7x7x4, .f32⟩
  | .hbm, ⟨35, _⟩ => ⟨S_, .f32⟩
  | .hbm, ⟨36, _⟩ => ⟨S512x256x7x7, .f32⟩
  | _, _ => ⟨S512x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_c_4 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_5 : Ref sig .tc := ⟨.hbm, 19, rfl⟩
abbrev main_v9 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_8 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  bcast_S_S7x4 : S_.BroadcastsInDim S7x4 (![] : Fin 0 → Fin S7x4.rank)
  bcast_S7x4_S7x4x1_0_1 : S7x4.BroadcastsInDim S7x4x1 (![0, 1] : Fin 2 → Fin S7x4x1.rank)
  bcast_S7x4_S1x1x7x4x1_2_3 : S7x4.BroadcastsInDim S1x1x7x4x1 (![2, 3] : Fin 2 → Fin S1x1x7x4x1.rank)
  bcast_S1x1x7x4x1_S512x256x7x4x28_0_1_2_3_4 : S1x1x7x4x1.BroadcastsInDim S512x256x7x4x28 (![0, 1, 2, 3, 4] : Fin 5 → Fin S512x256x7x4x28.rank)
  bcast_S_S512x256x7x4x28 : S_.BroadcastsInDim S512x256x7x4x28 (![] : Fin 0 → Fin S512x256x7x4x28.rank)
  reducesTo_S512x256x7x4x28_S512x256x7x28_d3 : S512x256x7x4x28.ReducesTo [3] S512x256x7x28
  h_S_ : 0 < S_.numel
  bcast_S7x4_S1x1x1x7x4_3_4 : S7x4.BroadcastsInDim S1x1x1x7x4 (![3, 4] : Fin 2 → Fin S1x1x1x7x4.rank)
  bcast_S1x1x1x7x4_S512x256x7x7x4_0_1_2_3_4 : S1x1x1x7x4.BroadcastsInDim S512x256x7x7x4 (![0, 1, 2, 3, 4] : Fin 5 → Fin S512x256x7x7x4.rank)
  bcast_S_S512x256x7x7x4 : S_.BroadcastsInDim S512x256x7x7x4 (![] : Fin 0 → Fin S512x256x7x7x4.rank)
  reducesTo_S512x256x7x7x4_S512x256x7x7_d4 : S512x256x7x7x4.ReducesTo [4] S512x256x7x7
  gather_S512x256x28x28_S7x4x1_S512x256x7x4x28_014_2_n_n_2_2_512256128_wf : GatherDims.WF S512x256x28x28 S7x4x1 S512x256x7x4x28 [0, 1, 4] [2] [] [2] [] 2 ![512, 256, 1, 28]
  gather_S512x256x7x28_S7x4x1_S512x256x7x7x4_012_3_n_n_3_2_51225671_wf : GatherDims.WF S512x256x7x28 S7x4x1 S512x256x7x7x4 [0, 1, 2] [3] [] [3] [] 2 ![512, 256, 7, 1]

variable [Facts₀]

def gather_S512x256x28x28_S7x4x1_S512x256x7x4x28_014_2_n_n_2_2_512256128 : GatherDims S512x256x28x28 S7x4x1 S512x256x7x4x28 where
  offsetDims := [0, 1, 4]
  collapsedSliceDims := [2]
  operandBatchingDims := []
  startIndicesBatchingDims := []
  startIndexMap := [2]
  indexVectorDim := 2
  sliceSizes := ![512, 256, 1, 28]
  wf := gather_S512x256x28x28_S7x4x1_S512x256x7x4x28_014_2_n_n_2_2_512256128_wf
def gather_S512x256x7x28_S7x4x1_S512x256x7x7x4_012_3_n_n_3_2_51225671 : GatherDims S512x256x7x28 S7x4x1 S512x256x7x7x4 where
  offsetDims := [0, 1, 2]
  collapsedSliceDims := [3]
  operandBatchingDims := []
  startIndicesBatchingDims := []
  startIndexMap := [3]
  indexVectorDim := 2
  sliceSizes := ![512, 256, 7, 1]
  wf := gather_S512x256x7x28_S7x4x1_S512x256x7x7x4_012_3_n_n_3_2_51225671_wf

class Facts : Prop extends Facts₀ where

variable [Facts]
-- ==== Proof.PoolSpec.lean ====
/-
  Pooling by maxima over 4 × 4 windows: the function both programs compute.

  An image of 28 × 28 values is cut into 7 × 7 windows of 4 × 4; the pooled image holds each window's maximum.
  Both programs take it in two passes from −∞: first the maximum over the four rows of a window, column by column,
  then the maximum over its four columns. The maximum of a family over a finite set, started from a seed, is a fold of
  `max`; the seed is the f32 word of −∞, kept as the word it is (both programs use the same one).
-/
import Idealize.ShloMosaic.PureOps.Ideal
import Idealize.ShloMosaic.PureOps.Ideal.Laws
import Idealize.ShloMosaic.PureOps.Reduce
import Idealize.ShloMosaic.Lib.ValueIdx

noncomputable section

namespace Cert.Pool

open Idealize.ShloMosaic Idealize.ShloMosaic.ValueIdx

/-- The seed of every maximum here: the f32 word of −∞ read as an extended real. -/
abbrev seed : EReal := FloatOps.ofBits (F := Ideal) .f32 0xFF800000#32

/-- The maximum of four values, from the seed. -/
def max4 (f : Fin 4 → EReal) : EReal := (Finset.univ : Finset (Fin 4)).fold max seed f

/-- Position `a` of window `i` along an axis of 28: `4 i + a`. -/
def pos (i : Fin 7) (a : Fin 4) : Fin 28 := ⟨4 * i.val + a.val, by have := i.isLt; have := a.isLt; omega⟩

theorem pos_val (i : Fin 7) (a : Fin 4) : (pos i a).val = 4 * i.val + a.val := rfl

/-- The maxima over the rows of window-row `i`, at column `w`: the first pass. -/
def rowMax (x : (⟨4, ![512, 256, 28, 28]⟩ : Shape).Idx → EReal) (n : Fin 512) (c : Fin 256) (i : Fin 7) (w : Fin 28) : EReal :=
  max4 fun a => x (ix4 n c (pos i a) w)

/-- The pooled value of image `(n, c)` at window `(i, j)`: the maximum over the window's columns of the row maxima. -/
def pooledAt (x : (⟨4, ![512, 256, 28, 28]⟩ : Shape).Idx → EReal) (n : Fin 512) (c : Fin 256) (i j : Fin 7) : EReal :=
  max4 fun b => rowMax x n c i (pos j b)

/-- The pooled array. -/
def pooled (x : (⟨4, ![512, 256, 28, 28]⟩ : Shape).Idx → EReal) : (⟨4, ![512, 256, 7, 7]⟩ : Shape).Idx → EReal :=
  fun o => pooledAt x (o 0) (o 1) (o 2) (o 3)

theorem pooled_apply (x : (⟨4, ![512, 256, 28, 28]⟩ : Shape).Idx → EReal) (n : Fin 512) (c : Fin 256) (i j : Fin 7) :
    pooled x (ix4 n c i j) = pooledAt x n c i j := rfl

/-- Two families equal position by position have the same maximum. -/
theorem max4_congr {f g : Fin 4 → EReal} (h : ∀ a, f a = g a) : max4 f = max4 g := by
  rw [show f = g from funext h]

end Cert.Pool

end
-- ==== Proof.Maxima.lean ====
/-
  Maxima over one axis of extent four, read at an index.

  A maximum over one axis, on the device or on the host, is at each index of the result the fold of `max` from the seed
  over the four source indices lying over it: the result's coordinates with the fourth, reduced, coordinate put back in
  its place. Here that is spelt out for the four reductions of the two programs: the middle and the last axis of a
  rank-3 block on the device, the fourth and the fifth axis of a rank-5 array on the host.
-/
import proofs.«181268_j1932735283567_2_alg».proof.Proof.PoolSpec

noncomputable section

namespace Cert.Pool

open Idealize.ShloMosaic Idealize.ShloMosaic.ValueIdx

/-- The device's maximum over the middle axis of an `[n0, 4, n2]` block, at `(p, q)`. -/
theorem deviceMax_mid {n0 n2 : Nat} (src : FVec Ideal ⟨3, ![n0, 4, n2]⟩ .f32)
    (h : Shape.Reduces ⟨3, ![n0, 4, n2]⟩ [1] ⟨2, ![n0, n2]⟩) (hφ : FKind.Formats .f32)
    (hacc : (0xFF800000#32 : BitVec 32) = FKind.maximumf.neutral .f32 hφ) (p : Fin n0) (q : Fin n2) :
    multiReduction .maximumf [1] ⟨2, ![n0, n2]⟩ src 0xFF800000#32 h hφ hacc (ix2 p q) = max4 fun a => src (ix3 p a q) := by
  refine (Ideal.multiReduction_maximumf_single src _ h hφ hacc (ix2 p q)).trans ?_
  have e : (src ∘ h.lift (ix2 p q)) = fun a : Fin 4 => src (ix3 p a q) := by
    funext a
    exact congrArg src (funext fun d => Fin.ext (by match d with | ⟨0, _⟩ => rfl | ⟨1, _⟩ => rfl | ⟨2, _⟩ => rfl))
  rw [e]
  rfl

/-- The device's maximum over the last axis of an `[n0, n1, 4]` block, at `(p, q)`. -/
theorem deviceMax_last {n0 n1 : Nat} (src : FVec Ideal ⟨3, ![n0, n1, 4]⟩ .f32)
    (h : Shape.Reduces ⟨3, ![n0, n1, 4]⟩ [2] ⟨2, ![n0, n1]⟩) (hφ : FKind.Formats .f32)
    (hacc : (0xFF800000#32 : BitVec 32) = FKind.maximumf.neutral .f32 hφ) (p : Fin n0) (q : Fin n1) :
    multiReduction .maximumf [2] ⟨2, ![n0, n1]⟩ src 0xFF800000#32 h hφ hacc (ix2 p q) = max4 fun b => src (ix3 p q b) := by
  refine (Ideal.multiReduction_maximumf_single src _ h hφ hacc (ix2 p q)).trans ?_
  have e : (src ∘ h.lift (ix2 p q)) = fun b : Fin 4 => src (ix3 p q b) := by
    funext b
    exact congrArg src (funext fun d => Fin.ext (by match d with | ⟨0, _⟩ => rfl | ⟨1, _⟩ => rfl | ⟨2, _⟩ => rfl))
  rw [e]
  rfl

/-- The host's maximum from the −∞ scalar over the fourth axis of an `[n0, n1, n2, 4, n4]` array, at `(n, c, i, w)`. -/
theorem hostMax_fourth {n0 n1 n2 n4 : Nat} (src : FVec Ideal ⟨5, ![n0, n1, n2, 4, n4]⟩ .f32)
    (h' : Shape.ReducesTo ⟨5, ![n0, n1, n2, 4, n4]⟩ [3] ⟨4, ![n0, n1, n2, n4]⟩)
    (h : Shape.Reduces ⟨5, ![n0, n1, n2, 4, n4]⟩ [3] ⟨4, ![n0, n1, n2, n4]⟩)
    (hu : 0 < (⟨0, ![]⟩ : Shape).numel) (n : Fin n0) (c : Fin n1) (i : Fin n2) (w : Fin n4) :
    Host.reduce (FloatOps.maximumf (F := Ideal) (φ := .f32)) src (constant (F := Ideal) ⟨0, ![]⟩ .f32 0xFF800000#32) h' hu (ix4 n c i w)
      = max4 fun a => src (ix5 n c i a w) := by
  refine (Host.reduce_eq_fold_single _ src _ h' h hu (ix4 n c i w)).trans ?_
  have e : (src ∘ h.lift (ix4 n c i w)) = fun a : Fin 4 => src (ix5 n c i a w) := by
    funext a
    exact congrArg src (funext fun d => Fin.ext (by
      match d with | ⟨0, _⟩ => rfl | ⟨1, _⟩ => rfl | ⟨2, _⟩ => rfl | ⟨3, _⟩ => rfl | ⟨4, _⟩ => rfl))
  rw [e]
  rfl

/-- The host's maximum from the −∞ scalar over the last axis of an `[n0, n1, n2, n3, 4]` array, at `(n, c, i, j)`. -/
theorem hostMax_fifth {n0 n1 n2 n3 : Nat} (src : FVec Ideal ⟨5, ![n0, n1, n2, n3, 4]⟩ .f32)
    (h' : Shape.ReducesTo ⟨5, ![n0, n1, n2, n3, 4]⟩ [4] ⟨4, ![n0, n1, n2, n3]⟩)
    (h : Shape.Reduces ⟨5, ![n0, n1, n2, n3, 4]⟩ [4] ⟨4, ![n0, n1, n2, n3]⟩)
    (hu : 0 < (⟨0, ![]⟩ : Shape).numel) (n : Fin n0) (c : Fin n1) (i : Fin n2) (j : Fin n3) :
    Host.reduce (FloatOps.maximumf (F := Ideal) (φ := .f32)) src (constant (F := Ideal) ⟨0, ![]⟩ .f32 0xFF800000#32) h' hu (ix4 n c i j)
      = max4 fun b => src (ix5 n c i j b) := by
  refine (Host.reduce_eq_fold_single _ src _ h' h hu (ix4 n c i j)).trans ?_
  have e : (src ∘ h.lift (ix4 n c i j)) = fun b : Fin 4 => src (ix5 n c i j b) := by
    funext b
    exact congrArg src (funext fun d => Fin.ext (by
      match d with | ⟨0, _⟩ => rfl | ⟨1, _⟩ => rfl | ⟨2, _⟩ => rfl | ⟨3, _⟩ => rfl | ⟨4, _⟩ => rfl))
  rw [e]
  rfl

end Cert.Pool

end
-- ==== Proof.LibJoin7.lean ====
/-
  Seven unit-thick slabs joined along an axis, read at an index.

  The join of seven slabs of thickness one along the middle axis of a rank-3 block is, at `(r, i, w)`, slab `i` at
  `(r, 0, w)`; along the last axis it is, at `(r, i, j)`, slab `j` at `(r, i, 0)`. The slab is found by position: the
  slabs before it take up as many places along the axis as there are of them.
-/
import Idealize.ShloMosaic.Lib.Pipeline.Value
import Idealize.ShloMosaic.Lib.ValueIdx

noncomputable section

namespace Cert.LibJoin7

open Idealize.ShloMosaic Idealize.ShloMosaic.ValueIdx

variable {α : Type}

/-- Seven slabs of one shape, as the list a join takes. -/
abbrev slabs (s : Shape) (p : Fin 7 → s.Idx → α) : List ((s : Shape) × (s.Idx → α)) :=
  [⟨s, p 0⟩, ⟨s, p 1⟩, ⟨s, p 2⟩, ⟨s, p 3⟩, ⟨s, p 4⟩, ⟨s, p 5⟩, ⟨s, p 6⟩]

/-- Seven `[n0, 1, n2]` slabs joined along the middle axis into `[n0, 7, n2]`, at `(r, i, w)`: slab `i` at `(r, 0, w)`. -/
theorem join7_mid {n0 n2 : Nat} (p : Fin 7 → (⟨3, ![n0, 1, n2]⟩ : Shape).Idx → α)
    (h : Shape.Concatenates ((slabs ⟨3, ![n0, 1, n2]⟩ p).map (·.1)) ⟨3, ![n0, 7, n2]⟩ 1)
    (r : Fin n0) (i : Fin 7) (w : Fin n2) :
    concatenate (⟨3, ![n0, 7, n2]⟩ : Shape) 1 (slabs ⟨3, ![n0, 1, n2]⟩ p) h (ix3 r i w) = p i (ix3 r 0 w) := by
  obtain ⟨k, hk⟩ := i
  have hx : (slabs ⟨3, ![n0, 1, n2]⟩ p)[k]'hk = ⟨⟨3, ![n0, 1, n2]⟩, p ⟨k, hk⟩⟩ := by
    interval_cases k <;> rfl
  have hpre : ((((slabs ⟨3, ![n0, 1, n2]⟩ p).take k).map (·.1)).map fun s : Shape =>
      if h : s.rank = (⟨3, ![n0, 7, n2]⟩ : Shape).rank then s.size ((1 : Fin 3).cast h.symm) else 0).sum = k := by
    interval_cases k <;> rfl
  refine concatenate_apply_piece (1 : Fin 3) (slabs ⟨3, ![n0, 1, n2]⟩ p) h (ix3 r ⟨k, hk⟩ w) k hk ⟨3, ![n0, 1, n2]⟩ (p ⟨k, hk⟩) hx rfl k
    hpre (ix3 r 0 w) (fun b hb => ?_) ?_
  · match b with
    | ⟨0, _⟩ => rfl
    | ⟨1, _⟩ => exact absurd rfl hb
    | ⟨2, _⟩ => rfl
  · show k + 0 = k
    omega

/-- Seven `[n0, n1, 1]` slabs joined along the last axis into `[n0, n1, 7]`, at `(r, i, j)`: slab `j` at `(r, i, 0)`. -/
theorem join7_last {n0 n1 : Nat} (p : Fin 7 → (⟨3, ![n0, n1, 1]⟩ : Shape).Idx → α)
    (h : Shape.Concatenates ((slabs ⟨3, ![n0, n1, 1]⟩ p).map (·.1)) ⟨3, ![n0, n1, 7]⟩ 2)
    (r : Fin n0) (i : Fin n1) (j : Fin 7) :
    concatenate (⟨3, ![n0, n1, 7]⟩ : Shape) 2 (slabs ⟨3, ![n0, n1, 1]⟩ p) h (ix3 r i j) = p j (ix3 r i 0) := by
  obtain ⟨k, hk⟩ := j
  have hx : (slabs ⟨3, ![n0, n1, 1]⟩ p)[k]'hk = ⟨⟨3, ![n0, n1, 1]⟩, p ⟨k, hk⟩⟩ := by
    interval_cases k <;> rfl
  have hpre : ((((slabs ⟨3, ![n0, n1, 1]⟩ p).take k).map (·.1)).map fun s : Shape =>
      if h : s.rank = (⟨3, ![n0, n1, 7]⟩ : Shape).rank then s.size ((2 : Fin 3).cast h.symm) else 0).sum = k := by
    interval_cases k <;> rfl
  refine concatenate_apply_piece (2 : Fin 3) (slabs ⟨3, ![n0, n1, 1]⟩ p) h (ix3 r i ⟨k, hk⟩) k hk ⟨3, ![n0, n1, 1]⟩ (p ⟨k, hk⟩) hx rfl k
    hpre (ix3 r i 0) (fun b hb => ?_) ?_
  · match b with
    | ⟨0, _⟩ => rfl
    | ⟨1, _⟩ => rfl
    | ⟨2, _⟩ => exact absurd rfl hb
  · show k + 0 = k
    omega

end Cert.LibJoin7

end
-- ==== Proof.KernelBody.lean ====
/-
  What the kernel's body leaves in its output block, index by index.

  The body loads a block of 256 images of 28 × 28. For each of the seven window-rows it slices the four rows, takes their
  maximum column by column from −∞, and keeps it as a slab one row thick; the seven slabs joined are the row pass,
  `[256, 7, 28]`. For each of the seven window-columns it slices the four columns of that, takes their maximum, keeps
  it as a slab one column thick; the seven slabs joined are what it stores. So the stored block at `(r, i, j)` is the
  maximum over the window's columns of the maxima over the window's rows of image `r`.
-/
import proofs.«181268_j1932735283567_2_alg».proof.Proof.Gen.KernelIdeal.Frame
import proofs.«181268_j1932735283567_2_alg».proof.Proof.Maxima
import proofs.«181268_j1932735283567_2_alg».proof.Proof.LibJoin7
import Idealize.ShloMosaic.Lib.Pipeline.Value

noncomputable section

namespace Cert.KernelIdeal.Body

open Cert.KernelIdeal Cert.KernelIdeal.Gen Idealize.ShloMosaic Idealize.ShloMosaic.ValueIdx Cert.Pool Cert.LibJoin7

/-- One window-row of the row pass: the maxima of rows `4 i … 4 i + 3`, kept as a slab, at `(r, u, w)`. -/
theorem rowSlab (v1 : FVec Ideal S256x28x28 .f32) (i : Fin 7)
    (hs : S256x28x28.Slices ![0, 4 * i.val, 0] S256x4x28) (hr : S256x4x28.Reduces [1] S256x28) (hφ : FKind.Formats .f32)
    (hacc : (0xFF800000#32 : BitVec 32) = FKind.maximumf.neutral .f32 hφ) (hc : S256x28.ShapeCasts S256x1x28)
    (r : Fin 256) (u : Fin 1) (w : Fin 28) :
    shapeCast S256x1x28 (multiReduction .maximumf [1] S256x28 (extractStridedSlice S256x4x28 ![0, 4 * i.val, 0] v1 hs) 0xFF800000#32 hr hφ hacc) hc (ix3 r u w)
      = max4 fun a => v1 (ix3 r (pos i a) w) := by
  refine (shapeCast_apply _ hc (ix3 r u w) (ix2 r w) ?_).trans ?_
  · rw [Shape.rowMajor_val_two, Shape.rowMajor_val_three]
    have hu := u.isLt
    show r.val * 28 + w.val = (r.val * 1 + u.val) * 28 + w.val
    have : u.val = 0 := by omega
    rw [this]; omega
  refine (deviceMax_mid _ hr hφ hacc r w).trans ?_
  refine max4_congr fun a => extractStridedSlice_apply _ v1 hs (ix3 r a w) (ix3 r (pos i a) w) fun d => ?_
  match d with
  | ⟨0, _⟩ => show r.val = 0 + r.val; omega
  | ⟨1, _⟩ => show 4 * i.val + a.val = 4 * i.val + a.val; rfl
  | ⟨2, _⟩ => show w.val = 0 + w.val; omega

/-- One window-column of the column pass: the maxima of columns `4 j … 4 j + 3` of a `[256, 7, 28]` block, kept as a
    slab, at `(r, i, u)`. -/
theorem colSlab (y : FVec Ideal S256x7x28 .f32) (j : Fin 7)
    (hs : S256x7x28.Slices ![0, 0, 4 * j.val] S256x7x4) (hr : S256x7x4.Reduces [2] S256x7) (hφ : FKind.Formats .f32)
    (hacc : (0xFF800000#32 : BitVec 32) = FKind.maximumf.neutral .f32 hφ) (hc : S256x7.ShapeCasts S256x7x1)
    (r : Fin 256) (i : Fin 7) (u : Fin 1) :
    shapeCast S256x7x1 (multiReduction .maximumf [2] S256x7 (extractStridedSlice S256x7x4 ![0, 0, 4 * j.val] y hs) 0xFF800000#32 hr hφ hacc) hc (ix3 r i u)
      = max4 fun b => y (ix3 r i (pos j b)) := by
  refine (shapeCast_apply _ hc (ix3 r i u) (ix2 r i) ?_).trans ?_
  · rw [Shape.rowMajor_val_two, Shape.rowMajor_val_three]
    have hu := u.isLt
    show r.val * 7 + i.val = (r.val * 7 + i.val) * 1 + u.val
    omega
  refine (deviceMax_last _ hr hφ hacc r i).trans ?_
  refine max4_congr fun b => extractStridedSlice_apply _ y hs (ix3 r i b) (ix3 r i (pos j b)) fun d => ?_
  match d with
  | ⟨0, _⟩ => show r.val = 0 + r.val; omega
  | ⟨1, _⟩ => show i.val = 0 + i.val; omega
  | ⟨2, _⟩ => show 4 * j.val + b.val = 4 * j.val + b.val; rfl

/-! ## The two joins -/

theorem slices_rows : ∀ k : Fin 7, S256x28x28.Slices ![0, 4 * k.val, 0] S256x4x28 := by decide
theorem slices_cols : ∀ k : Fin 7, S256x7x28.Slices ![0, 0, 4 * k.val] S256x7x4 := by decide

/-- Slab `k` of the row pass of a loaded block. -/
def rowSlabOf (v1 : FVec Ideal S256x28x28 .f32) (k : Fin 7) : FVec Ideal S256x1x28 .f32 :=
  shapeCast S256x1x28 (multiReduction .maximumf [1] S256x28 (extractStridedSlice S256x4x28 ![0, 4 * k.val, 0] v1 (slices_rows k))
    0xFF800000#32 reduces_S256x4x28_S256x28 (.inl rfl) rfl) shapeCasts_S256x28_S256x1x28

/-- Slab `k` of the column pass of a `[256, 7, 28]` block. -/
def colSlabOf (y : FVec Ideal S256x7x28 .f32) (k : Fin 7) : FVec Ideal S256x7x1 .f32 :=
  shapeCast S256x7x1 (multiReduction .maximumf [2] S256x7 (extractStridedSlice S256x7x4 ![0, 0, 4 * k.val] y (slices_cols k))
    0xFF800000#32 reduces_S256x7x4_S256x7 (.inl rfl) rfl) shapeCasts_S256x7_S256x7x1

/-- The row pass is the join of its seven slabs along the middle axis. -/
theorem rowPass_eq (v0 : Vec Ideal S256x28x28 .f32) :
    k0_pay2 v0 = concatenate S256x7x28 1 (slabs S256x1x28 (rowSlabOf (shapeCast S256x28x28 v0 shapeCasts_S256x28x28_S256x28x28)))
      concatenates_S256x1x28_S256x1x28_S256x1x28_S256x1x28_S256x1x28_S256x1x28_S256x1x28_S256x7x28_d1 := rfl

/-- The row pass at `(r, i, w)`: the maximum over the rows of window-row `i`, at column `w`. -/
theorem rowPass_apply (v0 : Vec Ideal S256x28x28 .f32) (r : Fin 256) (i : Fin 7) (w : Fin 28) :
    k0_pay2 v0 (ix3 r i w) = max4 fun a => v0 (ix3 r (pos i a) w) := by
  rw [rowPass_eq]
  refine (join7_mid _ _ r i w).trans ?_
  refine (rowSlab _ i _ _ _ _ _ r 0 w).trans ?_
  rw [shapeCast_self]

/-- What the body stores is the join, along the last axis, of the seven slabs of the column pass of the row pass. -/
theorem stored_eq (v0 : Vec Ideal S256x28x28 .f32) :
    k0_pay1 (k0_pay3 v0) (k0_pay4 v0) (k0_pay5 v0) (k0_pay6 v0) (k0_pay7 v0) (k0_pay8 v0) (k0_pay9 v0)
      = concatenate S256x7x7 2 (slabs S256x7x1 (colSlabOf (k0_pay2 v0)))
          concatenates_S256x7x1_S256x7x1_S256x7x1_S256x7x1_S256x7x1_S256x7x1_S256x7x1_S256x7x7_d2 := rfl

/-- What the body stores, at `(r, i, j)`: the maximum over the columns of window `(i, j)` of the maxima over its rows. -/
theorem stored_apply (v0 : Vec Ideal S256x28x28 .f32) (r : Fin 256) (i j : Fin 7) :
    k0_pay1 (k0_pay3 v0) (k0_pay4 v0) (k0_pay5 v0) (k0_pay6 v0) (k0_pay7 v0) (k0_pay8 v0) (k0_pay9 v0) (ix3 r i j)
      = max4 fun b => max4 fun a => v0 (ix3 r (pos i a) (pos j b)) := by
  rw [stored_eq]
  refine (join7_last _ _ r i j).trans ?_
  refine (colSlab _ j _ _ _ _ _ r i 0).trans ?_
  exact max4_congr fun b => rowPass_apply v0 r i (pos j b)

theorem zeros3 : (![0, 0, 0] : Fin 3 → Nat) = fun _ => 0 := funext fun a => by fin_cases a <;> rfl

/-- The output block after the body, from the input block, at `(r, i, j)`. -/
theorem out_apply (x0 : Vec Ideal S256x28x28 .f32) (r : Fin 256) (i j : Fin 7) :
    out0_1 x0 (ix3 r i j) = max4 fun b => max4 fun a => x0 (ix3 r (pos i a) (pos j b)) := by
  unfold out0_1
  rw [View.canon_unit_zero zeros3]
  simp only [View.ld_unit_zero (S := S256x28x28) zeros3]
  exact stored_apply x0 r i j

end Cert.KernelIdeal.Body

end
-- ==== Proof.KernelValue.lean ====
/-
  The kernel's result array, as one function of its argument.

  The argument `[512, 256, 28, 28]` is reshaped to 131072 flat images; the region works on blocks of 256 images, point
  `t` of its grid on images `256 t … 256 t + 255`, and writes back the pooled block; the blocks tile the flat output
  `[131072, 7, 7]`, which is reshaped to `[512, 256, 7, 7]`. So the flat output is the pooling of the flat images, one
  whole-array function, and the result its reshape.
-/
import proofs.«181268_j1932735283567_2_alg».proof.Proof.Gen.KernelIdeal.Frame
import proofs.«181268_j1932735283567_2_alg».proof.Proof.KernelBody
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx Idealize.SL.Sem Cert.Pool
open Idealize.ShloMosaic.Pipeline (Dat)

variable (m : (ℓ : Loc nD τ sig) → Buf (Elt Ideal) ℓ) (ρ : Dev nD → PrngReg)

/-- The pooling of flat images: image `R` at window `(i, j)`. -/
def flatPooled (z : S131072x28x28.Idx → EReal) : S131072x7x7.Idx → EReal :=
  fun o => max4 fun b => max4 fun a => z (ix3 (o 0) (pos (o 1) a) (pos (o 2) b))

/-- The printed index maps over the grid: both windows' block index is the point on the image axis, zero on the others. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point `t` writes back is block `t` of the pooling of the flat images as the region finds them. -/
theorem flushed_eq (c : Dev nD) (t : Fin cfg0.N) :
    (dats m 0 c).flushed 1 t = ((cfg0.win 1).blk t).view.read (Elt Ideal) (flatPooled (V m c main_v0)) := by
  show (cfg0.win 1).cut (grid0.coords t) ((dats m 0 c).after 1 t) = _
  rw [after0_1]
  obtain ⟨e0, e1, e2, e3, e4, e5⟩ := idx_facts t
  funext y
  revert y
  show ∀ y : S256x7x7.Idx, out0_1 (iblk m c 0 t) y = flatPooled (V m c main_v0) (((cfg0.win 1).blk t).view.emb y)
  intro y
  obtain ⟨r, i, j, rfl⟩ : ∃ (r : Fin 256) (i j : Fin 7), y = ix3 r i j := ⟨y 0, y 1, y 2, eq_ix3 y⟩
  refine (Body.out_apply (iblk m c 0 t) r i j).trans ?_
  unfold flatPooled
  refine max4_congr fun b => max4_congr fun a => ?_
  show V m c main_v0 (((cfg0.win 0).blk t).view.emb (ix3 r (pos i a) (pos j b))) = V m c main_v0 _
  refine congrArg (V m c main_v0) (funext fun d => Fin.ext ?_)
  match d with
  | ⟨0, _⟩ =>
    show win0_0.index t (0 : Fin 3) * 256 + 1 * r.val = win0_1.index t (0 : Fin 3) * 256 + 1 * r.val
    rw [e0, e3]
  | ⟨1, _⟩ =>
    show win0_0.index t (1 : Fin 3) * 28 + 1 * (4 * i.val + a.val) = 4 * (win0_1.index t (1 : Fin 3) * 7 + 1 * i.val) + a.val
    rw [e1, e4]; omega
  | ⟨2, _⟩ =>
    show win0_0.index t (2 : Fin 3) * 28 + 1 * (4 * j.val + b.val) = 4 * (win0_1.index t (2 : Fin 3) * 7 + 1 * j.val) + b.val
    rw [e2, e5]; omega

/-- An index of the flat output is in point `t`'s block iff each coordinate is in the block's range on its axis. -/
theorem mem_blk (t : Fin cfg0.N) (i : S131072x7x7.Idx) :
    i ∈ ((cfg0.win 1).blk t).view.set ↔ ∀ a : Fin 3, win0_1.index t a * S256x7x7.size a ≤ (i a).val
      ∧ (i a).val < win0_1.index t a * S256x7x7.size a + S256x7x7.size a := by
  show i ∈ ((View.whole main_v1).slice (win0_1.rect t)).set ↔ _
  rw [View.set_slice_whole, Rect.mem_set_unit]
  exact Iff.rfl

/-- Every index of the flat output is in the block of the point its image falls in: image `R` in point `R / 256`. -/
theorem cover (i : S131072x7x7.Idx) :
    ∃ t : Fin cfg0.N, (cfg0.win 1).flush t = true ∧ i ∈ ((cfg0.win 1).blk t).view.set := by
  have h0 : (i 0).val < 131072 := (i 0).isLt
  have h1 : (i 1).val < 7 := (i 1).isLt
  have h2 : (i 2).val < 7 := (i 2).isLt
  have hN : grid0.N = 512 := N_0
  have hlt : (i 0).val / 256 < cfg0.N := by show (i 0).val / 256 < grid0.N; rw [hN]; omega
  obtain ⟨e0, e1, e2, e3, e4, e5⟩ := idx_facts ⟨(i 0).val / 256, hlt⟩
  refine ⟨⟨(i 0).val / 256, hlt⟩, flush0_1 _, ?_⟩
  rw [mem_blk]
  intro a
  match a with
  | ⟨0, _⟩ =>
    show win0_1.index ⟨(i 0).val / 256, hlt⟩ (0 : Fin 3) * 256 ≤ (i 0).val
      ∧ (i 0).val < win0_1.index ⟨(i 0).val / 256, hlt⟩ (0 : Fin 3) * 256 + 256
    rw [e3]; show (i 0).val / 256 * 256 ≤ (i 0).val ∧ (i 0).val < (i 0).val / 256 * 256 + 256; omega
  | ⟨1, _⟩ =>
    show win0_1.index ⟨(i 0).val / 256, hlt⟩ (1 : Fin 3) * 7 ≤ (i 1).val
      ∧ (i 1).val < win0_1.index ⟨(i 0).val / 256, hlt⟩ (1 : Fin 3) * 7 + 7
    rw [e4]; omega
  | ⟨2, _⟩ =>
    show win0_1.index ⟨(i 0).val / 256, hlt⟩ (2 : Fin 3) * 7 ≤ (i 2).val
      ∧ (i 2).val < win0_1.index ⟨(i 0).val / 256, hlt⟩ (2 : Fin 3) * 7 + 7
    rw [e5]; omega

/-- The flat output after the run: the pooling of the flat images as the region finds them. -/
theorem final (c : Dev nD) : (dats m 0 c).arrAt 1 cfg0.N = flatPooled (V m c main_v0) :=
  (dats m 0 c).arrAt_eq_of_cover 1 (flatPooled (V m c main_v0)) (fun t _ => flushed_eq m c t) cover

/-- The flat images as the region finds them: the argument, reshaped. -/
theorem flat_eq (c : Dev nD) :
    (V m c main_v0 : S131072x28x28.Idx → EReal)
      = shapeCast S131072x28x28 (m ((c.tc : Thread nD τ).loc main_arg0)) shapeCasts_S512x256x28x28_S131072x28x28 := by
  show StableHlo.after hostOps0 (fun b => m (c, b)) (Proc.devRef .tc main_v0) = _
  after_results
  rfl

/-- The kernel's result as a function of its argument: reshape, pool the flat images, reshape. -/
def result (x : S512x256x28x28.Idx → EReal) : S512x256x7x7.Idx → EReal :=
  shapeCast S512x256x7x7 (flatPooled (shapeCast S131072x28x28 x shapeCasts_S512x256x28x28_S131072x28x28))
    shapeCasts_S131072x7x7_S512x256x7x7

/-- After the region, the closing reshape leaves the result buffer at that function of the argument. -/
theorem tail_eq (c : Dev nD) :
    Pipeline.afterTail₀ cfgs (dats m) 0 (V0 m) [hostOps1] c main_v2 = result (m ((c.tc : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = flatPooled (shapeCast S131072x28x28 (m ((c.tc : Thread nD τ).loc main_arg0)) shapeCasts_S512x256x28x28_S131072x28x28) :=
    (Pipeline.withArrays_arr spec0 launch0.win.arr_inj c (V0 m c) _ 1).trans
      ((final m c).trans (congrArg flatPooled (flat_eq m c)))
  rw [hw]
  rfl

/-- Every weakly fair execution of the kernel's program terminates with its result buffer at `result` of the argument
    and the argument unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.Whole

end
-- ==== Proof.KernelPooled.lean ====
/-
  The kernel's result is the pooled array.

  Flat image `256 n + c` is image `(n, c)` of the argument, and the flat output's row `256 n + c` is row `(n, c)` of the
  result: a reshape keeps row-major positions. So the pooling of the flat images, reshaped, is the pooling of the
  argument.
-/
import proofs.«181268_j1932735283567_2_alg».proof.Proof.KernelValue

noncomputable section

namespace Cert.KernelIdeal.Whole

open Cert.KernelIdeal Cert.KernelIdeal.Gen Idealize.ShloMosaic Idealize.ShloMosaic.ValueIdx Cert.Pool

/-- The flat position of image `(n, c)`. -/
def flat (n : Fin 512) (c : Fin 256) : Fin 131072 := ⟨256 * n.val + c.val, by have := n.isLt; have := c.isLt; omega⟩

/-- The flat images, at `(256 n + c, h, w)`: the argument at `(n, c, h, w)`. -/
theorem flat_apply (x : S512x256x28x28.Idx → EReal) (n : Fin 512) (c : Fin 256) (h w : Fin 28) :
    shapeCast S131072x28x28 x shapeCasts_S512x256x28x28_S131072x28x28 (ix3 (flat n c) h w) = x (ix4 n c h w) := by
  refine shapeCast_apply x _ (ix3 (flat n c) h w) (ix4 n c h w) ?_
  rw [Shape.rowMajor_val_three, Shape.rowMajor_val_four]
  show ((n.val * 256 + c.val) * 28 + h.val) * 28 + w.val = ((256 * n.val + c.val) * 28 + h.val) * 28 + w.val
  omega

/-- The kernel's result, as a function of its argument, is the pooled array. -/
theorem result_eq (x : S512x256x28x28.Idx → EReal) : result x = pooled x := by
  funext o
  obtain ⟨n, c, i, j, rfl⟩ : ∃ (n : Fin 512) (c : Fin 256) (i j : Fin 7), o = ix4 n c i j := ⟨o 0, o 1, o 2, o 3, eq_ix4 o⟩
  rw [pooled_apply]
  unfold result
  refine (shapeCast_apply _ shapeCasts_S131072x7x7_S512x256x7x7 (ix4 n c i j) (ix3 (flat n c) i j) ?_).trans ?_
  · rw [Shape.rowMajor_val_three, Shape.rowMajor_val_four]
    show ((256 * n.val + c.val) * 7 + i.val) * 7 + j.val = ((n.val * 256 + c.val) * 7 + i.val) * 7 + j.val
    omega
  show (max4 fun b => max4 fun a => shapeCast S131072x28x28 x shapeCasts_S512x256x28x28_S131072x28x28
      (ix3 (flat n c) (pos i a) (pos j b))) = max4 fun b => max4 fun a => x (ix4 n c (pos i a) (pos j b))
  exact max4_congr fun b => max4_congr fun a => flat_apply x n c (pos i a) (pos j b)

end Cert.KernelIdeal.Whole

end
-- ==== Proof.LibStretches.lean ====
/-
  A straight line of host operations read stretch by stretch, and contents carried to a typed reference and back.

  The buffer contents after a line of operations are a fold of the operations' results over the contents it starts
  from. Cut the line in two: the contents after the whole line are the fold over the second stretch of the contents
  after the first. A long line is read this way one stretch at a time, each stretch from what the one before left, a
  buffer a stretch does not write keeping its contents.

  Inside a function the program calls, a buffer is reached through a reference that carries its tensor type; contents
  are moved to the buffer's own type along an equation of types and back along its inverse. There and back is the
  identity, whatever the reference: with the pairs removed this way, a read-back of such a function's operations
  compares with a plain term without unfolding any operation.
-/
import Idealize.ShloMosaic.Lib.StableHlo.Run

namespace Cert.LibStretches

open Idealize.ShloMosaic Idealize.ShloMosaic.StableHlo

variable {τ : Topo} {sig : RefSig} {Val : EltTy → Type}

/-- The contents after two stretches run in turn: the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried to a typed reference's buffer and back are the contents. -/
theorem ofBuf_toBuf {T : BufTy} (x : TRef sig T) (v : T.Contents Val) : x.ofBuf (x.toBuf v) = v := by
  obtain ⟨r, h, _, _⟩ := x
  subst h
  rfl

/-- Contents carried from a typed reference's buffer and back to it are the contents. -/
theorem toBuf_ofBuf {T : BufTy} (x : TRef sig T) (v : x.ref.ty.Contents Val) : x.toBuf (x.ofBuf v) = v := by
  obtain ⟨r, h, _, _⟩ := x
  subst h
  rfl

end Cert.LibStretches
-- ==== Proof.RefRun.lean ====
/-
  The reference program's run, read back.

  The reference is one straight line of host operations: two tables of bin positions (row-major 0 … 27 as a 7 × 4
  table, wrapped by +28 where negative, which they never are), a gather of the rows each bin names, a select against an
  all-true mask, a maximum over the four rows of a bin from −∞; then the same along the columns. The two calls of the
  outlined select are listed with their own operations at the call sites. Every weakly fair execution of that line
  terminates with the result buffer at the composed term of the argument, and the argument unchanged.
-/
import proofs.«181268_j1932735283567_2_alg».proof.Proof.Gen.ReferenceIdeal
import proofs.«181268_j1932735283567_2_alg».proof.Proof.LibStretches
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order, the two outlined selects unfolded where they are called. -/
abbrev ops : List (HloOp τ sig (Elt F)) :=
  [ nullary main_c (fun i => lit0 (S7x4.rowMajor i)),
    nullary main_c_0 (constantI S7x4 1 1#1),
    nullary main_c_1 (fun i => lit1 (S7x4.rowMajor i)),
    nullary main_c_2 (constantI S7x4 1 1#1),
    nullary main_c_3 (constantI S_ 32 0#32),
    unary main_c_3 main_v0 (broadcastInDim S7x4 ![] bcast_S_S7x4 : (⟨S_, .i32⟩ : BufTy).Contents (Elt F) → (⟨S7x4, .i32⟩ : BufTy).Contents (Elt F)),
    binary main_c main_v0 main_v1 (cmpi .slt : (⟨S7x4, .i32⟩ : BufTy).Contents (Elt F) → (⟨S7x4, .i32⟩ : BufTy).Contents (Elt F) → (⟨S7x4, .i1⟩ : BufTy).Contents (Elt F)),
    nullary main_c_4 (constantI S_ 32 28#32),
    unary main_c_4 main_v2 (broadcastInDim S7x4 ![] bcast_S_S7x4 : (⟨S_, .i32⟩ : BufTy).Contents (Elt F) → (⟨S7x4, .i32⟩ : BufTy).Contents (Elt F)),
    binary main_c main_v2 main_v3 (addi : (⟨S7x4, .i32⟩ : BufTy).Contents (Elt F) → (⟨S7x4, .i32⟩ : BufTy).Contents (Elt F) → (⟨S7x4, .i32⟩ : BufTy).Contents (Elt F)),
    ternary main_v1 main_v3 main_c main_v4 (select : (⟨S7x4, .i1⟩ : BufTy).Contents (Elt F) → (⟨S7x4, .i32⟩ : BufTy).Contents (Elt F) → (⟨S7x4, .i32⟩ : BufTy).Contents (Elt F) → (⟨S7x4, .i32⟩ : BufTy).Contents (Elt F)),
    unary main_v4 main_v5 (broadcastInDim S7x4x1 ![0, 1] bcast_S7x4_S7x4x1_0_1 : (⟨S7x4, .i32⟩ : BufTy).Contents (Elt F) → (⟨S7x4x1, .i32⟩ : BufTy).Contents (Elt F)),
    binary main_arg0 main_v5 main_v6 ((fun x i => Host.gather gather_S512x256x28x28_S7x4x1_S512x256x7x4x28_014_2_n_n_2_2_512256128 x i) : (⟨S512x256x28x28, .f32⟩ : BufTy).Contents (Elt F) → (⟨S7x4x1, .i32⟩ : BufTy).Contents (Elt F) → (⟨S512x256x7x4x28, .f32⟩ : BufTy).Contents (Elt F)),
    unary main_c_0 main_v7 (broadcastInDim S1x1x7x4x1 ![2, 3] bcast_S7x4_S1x1x7x4x1_2_3 : (⟨S7x4, .i1⟩ : BufTy).Contents (Elt F) → (⟨S1x1x7x4x1, .i1⟩ : BufTy).Contents (Elt F)),
    nullary main_cst (constant S_ .f32 0xFF7FFFFF#32),
    TRef.unary (.of main_v7 : TRef sig ⟨S1x1x7x4x1, .i1⟩) main_call0.v0 (broadcastInDim S512x256x7x4x28 ![0, 1, 2, 3, 4] bcast_S1x1x7x4x1_S512x256x7x4x28_0_1_2_3_4),
    TRef.unary (.of main_cst : TRef sig ⟨S_, .f32⟩) main_call0.v1 (broadcastInDim S512x256x7x4x28 ![] bcast_S_S512x256x7x4x28),
    TRef.ternary main_call0.v0 (.of main_v6 : TRef sig ⟨S512x256x7x4x28, .f32⟩) main_call0.v1 main_call0.v2 select,
    nullary main_cst_5 (constant S_ .f32 0xFF800000#32),
    binary main_v8 main_cst_5 main_v9 ((fun x v => Host.reduce FloatOps.maximumf x v reducesTo_S512x256x7x4x28_S512x256x7x28_d3 h_S_) : (⟨S512x256x7x4x28, .f32⟩ : BufTy).Contents (Elt F) → (⟨S_, .f32⟩ : BufTy).Contents (Elt F) → (⟨S512x256x7x28, .f32⟩ : BufTy).Contents (Elt F)),
    nullary main_c_6 (constantI S_ 32 0#32),
    unary main_c_6 main_v10 (broadcastInDim S7x4 ![] bcast_S_S7x4 : (⟨S_, .i32⟩ : BufTy).Contents (Elt F) → (⟨S7x4, .i32⟩ : BufTy).Contents (Elt F)),
    binary main_c_1 main_v10 main_v11 (cmpi .slt : (⟨S7x4, .i32⟩ : BufTy).Contents (Elt F) → (⟨S7x4, .i32⟩ : BufTy).Contents (Elt F) → (⟨S7x4, .i1⟩ : BufTy).Contents (Elt F)),
    nullary main_c_7 (constantI S_ 32 28#32),
    unary main_c_7 main_v12 (broadcastInDim S7x4 ![] bcast_S_S7x4 : (⟨S_, .i32⟩ : BufTy).Contents (Elt F) → (⟨S7x4, .i32⟩ : BufTy).Contents (Elt F)),
    binary main_c_1 main_v12 main_v13 (addi : (⟨S7x4, .i32⟩ : BufTy).Contents (Elt F) → (⟨S7x4, .i32⟩ : BufTy).Contents (Elt F) → (⟨S7x4, .i32⟩ : BufTy).Contents (Elt F)),
    ternary main_v11 main_v13 main_c_1 main_v14 (select : (⟨S7x4, .i1⟩ : BufTy).Contents (Elt F) → (⟨S7x4, .i32⟩ : BufTy).Contents (Elt F) → (⟨S7x4, .i32⟩ : BufTy).Contents (Elt F) → (⟨S7x4, .i32⟩ : BufTy).Contents (Elt F)),
    unary main_v14 main_v15 (broadcastInDim S7x4x1 ![0, 1] bcast_S7x4_S7x4x1_0_1 : (⟨S7x4, .i32⟩ : BufTy).Contents (Elt F) → (⟨S7x4x1, .i32⟩ : BufTy).Contents (Elt F)),
    binary main_v9 main_v15 main_v16 ((fun x i => Host.gather gather_S512x256x7x28_S7x4x1_S512x256x7x7x4_012_3_n_n_3_2_51225671 x i) : (⟨S512x256x7x28, .f32⟩ : BufTy).Contents (Elt F) → (⟨S7x4x1, .i32⟩ : BufTy).Contents (Elt F) → (⟨S512x256x7x7x4, .f32⟩ : BufTy).Contents (Elt F)),
    unary main_c_2 main_v17 (broadcastInDim S1x1x1x7x4 ![3, 4] bcast_S7x4_S1x1x1x7x4_3_4 : (⟨S7x4, .i1⟩ : BufTy).Contents (Elt F) → (⟨S1x1x1x7x4, .i1⟩ : BufTy).Contents (Elt F)),
    nullary main_cst_8 (constant S_ .f32 0xFF7FFFFF#32),
    TRef.unary (.of main_v17 : TRef sig ⟨S1x1x1x7x4, .i1⟩) main_call1.v0 (broadcastInDim S512x256x7x7x4 ![0, 1, 2, 3, 4] bcast_S1x1x1x7x4_S512x256x7x7x4_0_1_2_3_4),
    TRef.unary (.of main_cst_8 : TRef sig ⟨S_, .f32⟩) main_call1.v1 (broadcastInDim S512x256x7x7x4 ![] bcast_S_S512x256x7x7x4),
    TRef.ternary main_call1.v0 (.of main_v16 : TRef sig ⟨S512x256x7x7x4, .f32⟩) main_call1.v1 main_call1.v2 select,
    nullary main_cst_9 (constant S_ .f32 0xFF800000#32),
    binary main_v18 main_cst_9 main_v19 ((fun x v => Host.reduce FloatOps.maximumf x v reducesTo_S512x256x7x7x4_S512x256x7x7_d4 h_S_) : (⟨S512x256x7x7x4, .f32⟩ : BufTy).Contents (Elt F) → (⟨S_, .f32⟩ : BufTy).Contents (Elt F) → (⟨S512x256x7x7, .f32⟩ : BufTy).Contents (Elt F)) ]

set_option maxRecDepth 4096 in
/-- The program is that line: the outlined selects' bodies unfolded at their calls, sequencing reassociated. -/
theorem main_eq (c : Dev nD) : main (F := F) c = seq ops := by
  simp only [main, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
    unary_bufs_sub .., binary_bufs_sub .., nullary_bufs_sub .., unary_bufs_sub .., binary_bufs_sub ..,
    ternary_bufs_sub .., unary_bufs_sub .., binary_bufs_sub .., unary_bufs_sub .., nullary_bufs_sub ..,
    unary_bufs_sub .., unary_bufs_sub .., ternary_bufs_sub .., nullary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    nullary_bufs_sub .., unary_bufs_sub .., unary_bufs_sub .., ternary_bufs_sub .., nullary_bufs_sub ..,
    binary_bufs_sub ..⟩

/-- Every weakly fair execution of the reference terminates, each buffer at the fold of the line's operations over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  The reference's result as one term of its argument.

  Read back through the line of operations, the result buffer holds the column pass applied to the row pass applied to
  the argument: each pass gathers, along one axis, the positions a 7 × 4 table of bins names, selects them against an
  all-true mask (the other branch, the least finite float, is never taken), and takes the maximum over a bin from −∞.
-/
import proofs.«181268_j1932735283567_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The bins' positions as start indices: the 7 × 4 table of literals, 28 added where an entry is negative. -/
def binTable (lit : Fin 28 → BitVec 32) : IVec S7x4x1 32 :=
  broadcastInDim S7x4x1 ![0, 1] bcast_S7x4_S7x4x1_0_1
    (select (cmpi .slt (fun i => lit (S7x4.rowMajor i)) (broadcastInDim S7x4 ![] bcast_S_S7x4 (constantI S_ 32 0#32)))
      (addi (fun i => lit (S7x4.rowMajor i)) (broadcastInDim S7x4 ![] bcast_S_S7x4 (constantI S_ 32 28#32)))
      (fun i => lit (S7x4.rowMajor i)))

/-- The row pass: rows gathered bin by bin, selected against the all-true mask, their maximum over a bin from −∞. -/
def rowStage (x : FVec F S512x256x28x28 .f32) : FVec F S512x256x7x28 .f32 :=
  Host.reduce FloatOps.maximumf
    (select
      (broadcastInDim S512x256x7x4x28 ![0, 1, 2, 3, 4] bcast_S1x1x7x4x1_S512x256x7x4x28_0_1_2_3_4
        (broadcastInDim S1x1x7x4x1 ![2, 3] bcast_S7x4_S1x1x7x4x1_2_3 (constantI S7x4 1 1#1)))
      (Host.gather gather_S512x256x28x28_S7x4x1_S512x256x7x4x28_014_2_n_n_2_2_512256128 x (binTable lit0))
      (broadcastInDim S512x256x7x4x28 ![] bcast_S_S512x256x7x4x28 (constant (F := F) S_ .f32 0xFF7FFFFF#32)))
    (constant (F := F) S_ .f32 0xFF800000#32) reducesTo_S512x256x7x4x28_S512x256x7x28_d3 h_S_

/-- The column pass: the same along the last axis. -/
def colStage (y : FVec F S512x256x7x28 .f32) : FVec F S512x256x7x7 .f32 :=
  Host.reduce FloatOps.maximumf
    (select
      (broadcastInDim S512x256x7x7x4 ![0, 1, 2, 3, 4] bcast_S1x1x1x7x4_S512x256x7x7x4_0_1_2_3_4
        (broadcastInDim S1x1x1x7x4 ![3, 4] bcast_S7x4_S1x1x1x7x4_3_4 (constantI S7x4 1 1#1)))
      (Host.gather gather_S512x256x7x28_S7x4x1_S512x256x7x7x4_012_3_n_n_3_2_51225671 y (binTable lit1))
      (broadcastInDim S512x256x7x7x4 ![] bcast_S_S512x256x7x7x4 (constant (F := F) S_ .f32 0xFF7FFFFF#32)))
    (constant (F := F) S_ .f32 0xFF800000#32) reducesTo_S512x256x7x7x4_S512x256x7x7_d4 h_S_

/-! Contents carried between a buffer's own type and the type of the value it holds are unchanged: the two types are one. -/

theorem ofBuf_v7 (h1 h2 h3) (v : main_v7.ty.Contents (Elt F)) :
    (TRef.of main_v7 h1 h2 h3 : TRef sig ⟨S1x1x7x4x1, .i1⟩).ofBuf v = v := rfl
theorem ofBuf_cst (h1 h2 h3) (v : main_cst.ty.Contents (Elt F)) :
    (TRef.of main_cst h1 h2 h3 : TRef sig ⟨S_, .f32⟩).ofBuf v = v := rfl
theorem ofBuf_v6 (h1 h2 h3) (v : main_v6.ty.Contents (Elt F)) :
    (TRef.of main_v6 h1 h2 h3 : TRef sig ⟨S512x256x7x4x28, .f32⟩).ofBuf v = v := rfl
theorem toBuf_v8 (h1 h2 h3) (v : (⟨S512x256x7x4x28, .f32⟩ : BufTy).Contents (Elt F)) :
    (TRef.of main_v8 h1 h2 h3 : TRef sig ⟨S512x256x7x4x28, .f32⟩).toBuf v = v := rfl
theorem ofBuf_v17 (h1 h2 h3) (v : main_v17.ty.Contents (Elt F)) :
    (TRef.of main_v17 h1 h2 h3 : TRef sig ⟨S1x1x1x7x4, .i1⟩).ofBuf v = v := rfl
theorem ofBuf_cst_8 (h1 h2 h3) (v : main_cst_8.ty.Contents (Elt F)) :
    (TRef.of main_cst_8 h1 h2 h3 : TRef sig ⟨S_, .f32⟩).ofBuf v = v := rfl
theorem ofBuf_v16 (h1 h2 h3) (v : main_v16.ty.Contents (Elt F)) :
    (TRef.of main_v16 h1 h2 h3 : TRef sig ⟨S512x256x7x7x4, .f32⟩).ofBuf v = v := rfl
theorem toBuf_v18 (h1 h2 h3) (v : (⟨S512x256x7x7x4, .f32⟩ : BufTy).Contents (Elt F)) :
    (TRef.of main_v18 h1 h2 h3 : TRef sig ⟨S512x256x7x7x4, .f32⟩).toBuf v = v := rfl

set_option maxRecDepth 8192 in
/-- The fold of the line's operations at the result buffer is the two passes of the argument's contents: each
    operation's result is read where it is written, and kept elsewhere. -/
theorem res_eq (V : Valuation τ sig (Elt F)) :
    after ops V (main_v19 : DevRef τ sig) = colStage (rowStage (V (main_arg0 : DevRef τ sig))) := by
  after_results_simp
  simp only [Cert.LibStretches.ofBuf_toBuf, ofBuf_v7, ofBuf_cst, ofBuf_v6, toBuf_v8, ofBuf_v17, ofBuf_cst_8, ofBuf_v16, toBuf_v18]
  unfold colStage rowStage binTable
  rfl

set_option maxRecDepth 8192 in
/-- No operation writes the argument. -/
theorem arg0_eq (V : Valuation τ sig (Elt F)) :
    after ops V (main_arg0 : DevRef τ sig) = V (main_arg0 : DevRef τ sig) := by
  after_results_simp

/-- Every weakly fair execution of the reference terminates with its result at the two passes of the argument, and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = colStage (rowStage (m ((c.tc : Thread nD τ).loc main_arg0)))
      ∧ r.2.mem ((c.tc : Thread nD τ).loc main_arg0) = m ((c.tc : Thread nD τ).loc main_arg0) :=
  (θ_run defs _ _).mono (fun _ h c => ⟨(h c main_v19).trans (res_eq _), (h c main_arg0).trans (arg0_eq _)⟩) (run_fold m ρ)

end Cert.ReferenceIdeal.Hand

end
-- ==== Proof.RefValue.lean ====
/-
  The reference's term is the pooled array.

  The tables of bin positions hold, at `(i, a)`, the word of `4 i + a`: never negative, so never wrapped, and inside
  the axis of 28, so never clamped. A gather along an axis at such a table reads, at `(…, i, a, …)`, the operand at
  position `4 i + a` of that axis, the other coordinates passing through. The mask is true everywhere, so each select
  keeps the gathered value. Each pass is then the maximum from −∞ over the four positions of a bin: the row pass gives
  the row maxima, the column pass the maximum of those over the window's columns.
-/
import proofs.«181268_j1932735283567_2_alg».proof.Proof.RefTerm
import proofs.«181268_j1932735283567_2_alg».proof.Proof.Maxima
import Idealize.ShloMosaic.Lib.ValueIdx

noncomputable section

namespace Cert.ReferenceIdeal.Hand

open Cert.ReferenceIdeal Cert.ReferenceIdeal.Gen Idealize.ShloMosaic Idealize.ShloMosaic.ValueIdx Cert.Pool

/-- Entry `(i, a)` of the row table, read signed and clamped into the axis, is `4 i + a`. -/
theorem table0 : ∀ (i : Fin 7) (a : Fin 4), min ((binTable lit0 (ix3 i a 0)).toInt.toNat) 27 = 4 * i.val + a.val := by
  decide +kernel

/-- Entry `(j, b)` of the column table, read signed and clamped into the axis, is `4 j + b`. -/
theorem table1 : ∀ (j : Fin 7) (b : Fin 4), min ((binTable lit1 (ix3 j b 0)).toInt.toNat) 27 = 4 * j.val + b.val := by
  decide +kernel

local notation "rowsD" => gather_S512x256x28x28_S7x4x1_S512x256x7x4x28_014_2_n_n_2_2_512256128
local notation "colsD" => gather_S512x256x7x28_S7x4x1_S512x256x7x7x4_012_3_n_n_3_2_51225671

/-- The gather of rows, at `(n, c, i, a, w)`: the operand at the row the table's entry `(i, a)` names, read signed and
    clamped into the axis; the other coordinates pass through. -/
theorem gatherRows_apply {α : Type} (x : S512x256x28x28.Idx → α) (idx : IVec S7x4x1 32) (n : Fin 512) (c : Fin 256) (i : Fin 7)
    (a : Fin 4) (w : Fin 28) :
    Host.gather rowsD x idx (ix5 n c i a w) = x (ix4 n c ⟨min (idx (ix3 i a 0)).toInt.toNat 27, by omega⟩ w) := by
  unfold Host.gather
  refine congrArg x (funext fun d => Fin.ext ?_)
  match d with
  | ⟨0, _⟩ =>
    show GatherDims.start rowsD (ix5 n c i a w) idx 0 + GatherDims.batchCoord rowsD (ix5 n c i a w) 0 + GatherDims.offCoord rowsD (ix5 n c i a w) 0 = n.val
    rw [GatherDims.batchCoord_eq_zero _ _ _ (by decide)]
    unfold GatherDims.start GatherDims.offCoord
    rw [dif_neg (by decide), dif_pos (by decide),
      show (GatherDims.offsetDims rowsD)[List.idxOf (0 : Fin 4) (GatherDims.sKept rowsD)]'(by decide) = (0 : Fin 5) by decide]
    show 0 + 0 + n.val = n.val
    omega
  | ⟨1, _⟩ =>
    show GatherDims.start rowsD (ix5 n c i a w) idx 1 + GatherDims.batchCoord rowsD (ix5 n c i a w) 1 + GatherDims.offCoord rowsD (ix5 n c i a w) 1 = c.val
    rw [GatherDims.batchCoord_eq_zero _ _ _ (by decide)]
    unfold GatherDims.start GatherDims.offCoord
    rw [dif_neg (by decide), dif_pos (by decide),
      show (GatherDims.offsetDims rowsD)[List.idxOf (1 : Fin 4) (GatherDims.sKept rowsD)]'(by decide) = (1 : Fin 5) by decide]
    show 0 + 0 + c.val = c.val
    omega
  | ⟨3, _⟩ =>
    show GatherDims.start rowsD (ix5 n c i a w) idx 3 + GatherDims.batchCoord rowsD (ix5 n c i a w) 3 + GatherDims.offCoord rowsD (ix5 n c i a w) 3 = w.val
    rw [GatherDims.batchCoord_eq_zero _ _ _ (by decide)]
    unfold GatherDims.start GatherDims.offCoord
    rw [dif_neg (by decide), dif_pos (by decide),
      show (GatherDims.offsetDims rowsD)[List.idxOf (3 : Fin 4) (GatherDims.sKept rowsD)]'(by decide) = (4 : Fin 5) by decide]
    show 0 + 0 + w.val = w.val
    omega
  | ⟨2, _⟩ =>
    show GatherDims.start rowsD (ix5 n c i a w) idx 2 + GatherDims.batchCoord rowsD (ix5 n c i a w) 2
      + GatherDims.offCoord rowsD (ix5 n c i a w) 2 = _
    rw [GatherDims.batchCoord_eq_zero _ _ _ (by decide), GatherDims.offCoord_eq_zero _ _ _ (by decide)]
    simp only [Nat.add_zero]
    unfold GatherDims.start
    rw [dif_pos (show (2 : Fin 4) ∈ GatherDims.startIndexMap rowsD from List.mem_singleton.mpr rfl)]
    have hsi : GatherDims.siIdx rowsD (ix5 n c i a w) ⟨List.idxOf (2 : Fin 4) (GatherDims.startIndexMap rowsD),
        List.idxOf_lt_length_iff.2 (List.mem_singleton.mpr rfl)⟩ = ix3 i a 0 := by
      funext b; refine Fin.ext ?_
      match b with
      | ⟨0, _⟩ => rfl
      | ⟨1, _⟩ => rfl
      | ⟨2, _⟩ => rfl
    rw [hsi]
    rfl

/-- The gather of columns, at `(n, c, i, j, b)`: the operand at the column the table's entry `(j, b)` names. -/
theorem gatherCols_apply {α : Type} (y : S512x256x7x28.Idx → α) (idx : IVec S7x4x1 32) (n : Fin 512) (c : Fin 256) (i j : Fin 7)
    (b : Fin 4) :
    Host.gather colsD y idx (ix5 n c i j b) = y (ix4 n c i ⟨min (idx (ix3 j b 0)).toInt.toNat 27, by omega⟩) := by
  unfold Host.gather
  refine congrArg y (funext fun d => Fin.ext ?_)
  match d with
  | ⟨0, _⟩ =>
    show GatherDims.start colsD (ix5 n c i j b) idx 0 + GatherDims.batchCoord colsD (ix5 n c i j b) 0 + GatherDims.offCoord colsD (ix5 n c i j b) 0 = n.val
    rw [GatherDims.batchCoord_eq_zero _ _ _ (by decide)]
    unfold GatherDims.start GatherDims.offCoord
    rw [dif_neg (by decide), dif_pos (by decide),
      show (GatherDims.offsetDims colsD)[List.idxOf (0 : Fin 4) (GatherDims.sKept colsD)]'(by decide) = (0 : Fin 5) by decide]
    show 0 + 0 + n.val = n.val
    omega
  | ⟨1, _⟩ =>
    show GatherDims.start colsD (ix5 n c i j b) idx 1 + GatherDims.batchCoord colsD (ix5 n c i j b) 1 + GatherDims.offCoord colsD (ix5 n c i j b) 1 = c.val
    rw [GatherDims.batchCoord_eq_zero _ _ _ (by decide)]
    unfold GatherDims.start GatherDims.offCoord
    rw [dif_neg (by decide), dif_pos (by decide),
      show (GatherDims.offsetDims colsD)[List.idxOf (1 : Fin 4) (GatherDims.sKept colsD)]'(by decide) = (1 : Fin 5) by decide]
    show 0 + 0 + c.val = c.val
    omega
  | ⟨2, _⟩ =>
    show GatherDims.start colsD (ix5 n c i j b) idx 2 + GatherDims.batchCoord colsD (ix5 n c i j b) 2 + GatherDims.offCoord colsD (ix5 n c i j b) 2 = i.val
    rw [GatherDims.batchCoord_eq_zero _ _ _ (by decide)]
    unfold GatherDims.start GatherDims.offCoord
    rw [dif_neg (by decide), dif_pos (by decide),
      show (GatherDims.offsetDims colsD)[List.idxOf (2 : Fin 4) (GatherDims.sKept colsD)]'(by decide) = (2 : Fin 5) by decide]
    show 0 + 0 + i.val = i.val
    omega
  | ⟨3, _⟩ =>
    show GatherDims.start colsD (ix5 n c i j b) idx 3 + GatherDims.batchCoord colsD (ix5 n c i j b) 3
      + GatherDims.offCoord colsD (ix5 n c i j b) 3 = _
    rw [GatherDims.batchCoord_eq_zero _ _ _ (by decide), GatherDims.offCoord_eq_zero _ _ _ (by decide)]
    simp only [Nat.add_zero]
    unfold GatherDims.start
    rw [dif_pos (show (3 : Fin 4) ∈ GatherDims.startIndexMap colsD from List.mem_singleton.mpr rfl)]
    have hsi : GatherDims.siIdx colsD (ix5 n c i j b) ⟨List.idxOf (3 : Fin 4) (GatherDims.startIndexMap colsD),
        List.idxOf_lt_length_iff.2 (List.mem_singleton.mpr rfl)⟩ = ix3 j b 0 := by
      funext e; refine Fin.ext ?_
      match e with
      | ⟨0, _⟩ => rfl
      | ⟨1, _⟩ => rfl
      | ⟨2, _⟩ => rfl
    rw [hsi]
    rfl

theorem reduces_rows : S512x256x7x4x28.Reduces [3] S512x256x7x28 := by decide
theorem reduces_cols : S512x256x7x7x4.Reduces [4] S512x256x7x7 := by decide

/-- The row pass at `(n, c, i, w)`: the maximum over the rows of window-row `i`, at column `w`. -/
theorem rowStage_apply (x : FVec Ideal S512x256x28x28 .f32) (n : Fin 512) (c : Fin 256) (i : Fin 7) (w : Fin 28) :
    rowStage (F := Ideal) x (ix4 n c i w) = rowMax x n c i w := by
  unfold rowStage rowMax
  refine (hostMax_fourth _ _ reduces_rows h_S_ n c i w).trans (max4_congr fun a => ?_)
  refine (select_apply _ _ _ _).trans ?_
  rw [show (broadcastInDim S512x256x7x4x28 ![0, 1, 2, 3, 4] bcast_S1x1x7x4x1_S512x256x7x4x28_0_1_2_3_4
      (broadcastInDim S1x1x7x4x1 ![2, 3] bcast_S7x4_S1x1x7x4x1_2_3 (constantI S7x4 1 1#1))) (ix5 n c i a w) = 1#1 from rfl,
    select_one, gatherRows_apply]
  exact congrArg (fun q => x (ix4 n c q w)) (Fin.ext (table0 i a))

/-- The column pass at `(n, c, i, j)`: the maximum over the columns of window-column `j`, of row `i`. -/
theorem colStage_apply (y : FVec Ideal S512x256x7x28 .f32) (n : Fin 512) (c : Fin 256) (i j : Fin 7) :
    colStage (F := Ideal) y (ix4 n c i j) = max4 fun b => y (ix4 n c i (pos j b)) := by
  unfold colStage
  refine (hostMax_fifth _ _ reduces_cols h_S_ n c i j).trans (max4_congr fun b => ?_)
  refine (select_apply _ _ _ _).trans ?_
  rw [show (broadcastInDim S512x256x7x7x4 ![0, 1, 2, 3, 4] bcast_S1x1x1x7x4_S512x256x7x7x4_0_1_2_3_4
      (broadcastInDim S1x1x1x7x4 ![3, 4] bcast_S7x4_S1x1x1x7x4_3_4 (constantI S7x4 1 1#1))) (ix5 n c i j b) = 1#1 from rfl,
    select_one, gatherCols_apply]
  exact congrArg (fun q => y (ix4 n c i q)) (Fin.ext (table1 j b))

/-- The reference's result, as a function of its argument, is the pooled array. -/
theorem term_eq (x : FVec Ideal S512x256x28x28 .f32) : colStage (F := Ideal) (rowStage (F := Ideal) x) = pooled x := by
  funext o
  obtain ⟨n, c, i, j, rfl⟩ : ∃ (n : Fin 512) (c : Fin 256) (i j : Fin 7), o = ix4 n c i j := ⟨o 0, o 1, o 2, o 3, eq_ix4 o⟩
  rw [pooled_apply]
  unfold pooledAt
  exact (colStage_apply _ n c i j).trans (max4_congr fun b => rowStage_apply x n c i (pos j b))

end Cert.ReferenceIdeal.Hand

end
-- ==== Proof.lean ====
/-
  Pooling by maxima over 4 × 4 windows: a tiled kernel against a gather-and-reduce reference.

  Both programs take 512 × 256 images of 28 × 28 values to 512 × 256 pooled images of 7 × 7, the entry at window
  `(i, j)` the maximum of the image over rows `4 i … 4 i + 3` and columns `4 j … 4 j + 3`, taken rows first and then
  columns, each maximum a fold of `max` from −∞ (Proof/PoolSpec.lean states this function once, over no program).

  The kernel flattens the images, works on blocks of 256 of them, and in each block slices, reduces and joins
  (Proof/KernelBody.lean: the stored block index by index; Proof/KernelValue.lean: the blocks tile the flat output, and
  the reshapes on both ends; Proof/KernelPooled.lean: flat image `256 n + c` is image `(n, c)`). The reference gathers
  the rows of each bin through a table of positions, selects against an all-true mask, reduces, and does the same for
  the columns (Proof/RefRun.lean: its line of operations and its run; Proof/RefTerm.lean: the result as one term;
  Proof/RefValue.lean: the tables name positions `4 i + a`, so the term is the pooled array). Both results are the one
  function of arguments that agree, on the extended reals, with no condition on the values: only `max` is applied.

  The two programs printed with a kernel terminate with their argument unchanged by their launch's frame; the
  reference by its run. The idealization rewrote nothing.
-/
import proofs.«181268_j1932735283567_2_alg».proof.Defs
import proofs.«181268_j1932735283567_2_alg».proof.Proof.Gen.Kernel
import proofs.«181268_j1932735283567_2_alg».proof.Proof.Gen.Kernel.Frame
import proofs.«181268_j1932735283567_2_alg».proof.Proof.Gen.KernelIdeal
import proofs.«181268_j1932735283567_2_alg».proof.Proof.Gen.KernelIdeal.Frame
import proofs.«181268_j1932735283567_2_alg».proof.Proof.Gen.ReferenceIdeal
import proofs.«181268_j1932735283567_2_alg».proof.Proof.Gen.Pre_finite_inputs
import proofs.«181268_j1932735283567_2_alg».proof.Proof.KernelPooled
import proofs.«181268_j1932735283567_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its argument unchanged: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- From arguments that agree both programs end with the pooled array of the argument in their result buffers. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Whole.result_eq _), (h c).2⟩) (Cert.KernelIdeal.Whole.run m ρ)
  · refine (θ_run Cert.ReferenceIdeal.defs _ _).mono (fun _ h c => ⟨(h c).1.trans ?_, (h c).2⟩)
      (Cert.ReferenceIdeal.Hand.run (F := Ideal) m' ρ')
    rw [hagree c]
    exact Cert.ReferenceIdeal.Hand.term_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
